-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x128 : Shape := ⟨2, ![32, 128]⟩
abbrev S32000x1024 : Shape := ⟨2, ![32000, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_

variable [Facts]

def fn {F : FTy → Type} [FloatOps F] (main_arg0 : FVec F S32x2048x1024 .f32) (main_arg1 : IVec S32x128 32) (main_arg2 : FVec F S32000x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  main_v8
-- ==== Kernel.lean ====
abbrev S32x2048x1024 : Shape := ⟨3, ![32, 2048, 1024]⟩
abbrev S32x128 : Shape := ⟨2, ![32, 128]⟩
abbrev S32000x1024 : Shape := ⟨2, ![32000, 1024]⟩
abbrev S_ : Shape := ⟨0, ![]⟩
abbrev S32x128x1 : Shape := ⟨3, ![32, 128, 1]⟩
abbrev S32x128x1024 : Shape := ⟨3, ![32, 128, 1024]⟩
abbrev S32x1x2048 : Shape := ⟨3, ![32, 1, 2048]⟩
abbrev S1x2048x1024 : Shape := ⟨3, ![1, 2048, 1024]⟩
abbrev S1x128x1024 : Shape := ⟨3, ![1, 128, 1024]⟩
abbrev S1x1x2048 : Shape := ⟨3, ![1, 1, 2048]⟩
abbrev S2048x1024 : Shape := ⟨2, ![2048, 1024]⟩
abbrev S128x1024 : Shape := ⟨2, ![128, 1024]⟩
abbrev S2048 : Shape := ⟨1, ![2048]⟩
abbrev S2048x1 : Shape := ⟨2, ![2048, 1]⟩
abbrev S128 : Shape := ⟨1, ![128]⟩
abbrev S2048x128 : Shape := ⟨2, ![2048, 128]⟩
abbrev S1x128 : Shape := ⟨2, ![1, 128]⟩
abbrev S1x2048 : Shape := ⟨2, ![1, 2048]⟩
abbrev S32x2048 : Shape := ⟨2, ![32, 2048]⟩

abbrev nBuf : Space → Nat
  | .hbm => 18
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S32x128, .i32⟩
  | .hbm, ⟨2, _⟩ => ⟨S32000x1024, .f32⟩
  | .hbm, ⟨3, _⟩ => ⟨S_, .i32⟩
  | .hbm, ⟨4, _⟩ => ⟨S32x128, .i32⟩
  | .hbm, ⟨5, _⟩ => ⟨S32x128, .i1⟩
  | .hbm, ⟨6, _⟩ => ⟨S_, .i32⟩
  | .hbm, ⟨7, _⟩ => ⟨S32x128, .i32⟩
  | .hbm, ⟨8, _⟩ => ⟨S32x128, .i32⟩
  | .hbm, ⟨9, _⟩ => ⟨S32x128, .i32⟩
  | .hbm, ⟨10, _⟩ => ⟨S32x128x1, .i32⟩
  | .hbm, ⟨11, _⟩ => ⟨S32x128x1024, .f32⟩
  | .hbm, ⟨12, _⟩ => ⟨S32x1x2048, .f32⟩
  | .hbm, ⟨13, _⟩ => ⟨S32x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1x2048, .f32⟩
  | .local _ .vmem, ⟨5, _⟩ => ⟨S1x1x2048, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S2048x1024_S2048 : S2048x1024.Reduces [1] S2048
  shapeCasts_S2048_S2048x1 : S2048.ShapeCasts S2048x1
  reduces_S128x1024_S128 : S128x1024.Reduces [1] S128
  bitsLt_bf16_f32 : FTy.bits .bf16 < FTy.bits .f32
  shapeCasts_S128_S1x128 : S128.ShapeCasts S1x128
  broadcasts_S2048x1_S2048x128 : S2048x1.Broadcasts S2048x128
  broadcasts_S1x128_S2048x128 : S1x128.Broadcasts S2048x128
  reduces_S2048x128_S2048 : S2048x128.Reduces [1] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x1x2048_S32x2048 : S32x1x2048.ShapeCasts S32x2048
  reducesTo_S32x2048_S_d0_1 : S32x2048.ReducesTo [0, 1] S_
  h_S_ : 0 < S_.numel
  gather_S32000x1024_S32x128x1_S32x128x1024_2_0_n_n_0_2_11024_wf : GatherDims.WF S32000x1024 S32x128x1 S32x128x1024 [2] [0] [] [0] [] 2 ![1, 1024]
  dot_S2048x1024_S128x1024_S2048x128_1_1_0_0_n_n_wf : DotDims.WF S2048x1024 S128x1024 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S32x2048x1024.size a
  hwx0_0 : ∀ i : grid0.Coords, EltTy.bits .f32 = 32 ∨ (Rect.block (s := S32x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S32x128x1024.size a
  hwx0_1 : ∀ i : grid0.Coords, EltTy.bits .f32 = 32 ∨ (Rect.block (s := S32x128x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)

variable [Facts₀]

def gather_S32000x1024_S32x128x1_S32x128x1024_2_0_n_n_0_2_11024 : GatherDims S32000x1024 S32x128x1 S32x128x1024 where
  offsetDims := [2]
  collapsedSliceDims := [0]
  operandBatchingDims := []
  startIndicesBatchingDims := []
  startIndexMap := [0]
  indexVectorDim := 2
  sliceSizes := ![1, 1024]
  wf := gather_S32000x1024_S32x128x1_S32x128x1024_2_0_n_n_0_2_11024_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S32x128 : Shape := ⟨2, ![32, 128]⟩
abbrev S32000x1024 : Shape := ⟨2, ![32000, 1024]⟩
abbrev S_ : Shape := ⟨0, ![]⟩
abbrev S32x128x1 : Shape := ⟨3, ![32, 128, 1]⟩
abbrev S32x128x1024 : Shape := ⟨3, ![32, 128, 1024]⟩
abbrev S32x2048 : Shape := ⟨2, ![32, 2048]⟩
abbrev S32x2048x128 : Shape := ⟨3, ![32, 2048, 128]⟩
abbrev S32x2048x1 : Shape := ⟨3, ![32, 2048, 1]⟩
abbrev S32x1x128 : Shape := ⟨3, ![32, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x128, .i32⟩
  | .hbm, ⟨2, _⟩ => ⟨S32000x1024, .f32⟩
  | .hbm, ⟨3, _⟩ => ⟨S_, .i32⟩
  | .hbm, ⟨4, _⟩ => ⟨S32x128, .i32⟩
  | .hbm, ⟨5, _⟩ => ⟨S32x128, .i1⟩
  | .hbm, ⟨6, _⟩ => ⟨S_, .i32⟩
  | .hbm, ⟨7, _⟩ => ⟨S32x128, .i32⟩
  | .hbm, ⟨8, _⟩ => ⟨S32x128, .i32⟩
  | .hbm, ⟨9, _⟩ => ⟨S32x128, .i32⟩
  | .hbm, ⟨10, _⟩ => ⟨S32x128x1, .i32⟩
  | .hbm, ⟨11, _⟩ => ⟨S32x128x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x128x1024, .f32⟩
  | .hbm, ⟨16, _⟩ => ⟨S_, .f32⟩
  | .hbm, ⟨17, _⟩ => ⟨S32x128, .f32⟩
  | .hbm, ⟨18, _⟩ => ⟨S32x2048x128, .f32⟩
  | .hbm, ⟨19, _⟩ => ⟨S32x2048x1, .f32⟩
  | .hbm, ⟨20, _⟩ => ⟨S32x1x128, .f32⟩
  | .hbm, ⟨21, _⟩ => ⟨S32x2048x128, .f32⟩
  | .hbm, ⟨22, _⟩ => ⟨S32x2048x128, .f32⟩
  | .hbm, ⟨23, _⟩ => ⟨S32x2048x128, .f32⟩
  | .hbm, ⟨24, _⟩ => ⟨S_, .f32⟩
  | .hbm, ⟨25, _⟩ => ⟨S32x2048x128, .f32⟩
  | .hbm, ⟨26, _⟩ => ⟨S32x2048x128, .f32⟩
  | .hbm, ⟨27, _⟩ => ⟨S32x2048x128, .f32⟩
  | .hbm, ⟨28, _⟩ => ⟨S_, .f32⟩
  | .hbm, ⟨29, _⟩ => ⟨S32x2048x128, .f32⟩
  | .hbm, ⟨30, _⟩ => ⟨S32x2048x128, .f32⟩
  | .hbm, ⟨31, _⟩ => ⟨S32x2048x128, .f32⟩
  | .hbm, ⟨32, _⟩ => ⟨S_, .f32⟩
  | .hbm, ⟨33, _⟩ => ⟨S32x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  reducesTo_S32x2048x1024_S32x2048_d2 : S32x2048x1024.ReducesTo [2] S32x2048
  h_S_ : 0 < S_.numel
  reducesTo_S32x128x1024_S32x128_d2 : S32x128x1024.ReducesTo [2] S32x128
  bcast_S32x2048_S32x2048x1_0_1 : S32x2048.BroadcastsInDim S32x2048x1 (![0, 1] : Fin 2 → Fin S32x2048x1.rank)
  bcast_S32x128_S32x1x128_0_2 : S32x128.BroadcastsInDim S32x1x128 (![0, 2] : Fin 2 → Fin S32x1x128.rank)
  bcast_S32x2048x1_S32x2048x128_0_1_2 : S32x2048x1.BroadcastsInDim S32x2048x128 (![0, 1, 2] : Fin 3 → Fin S32x2048x128.rank)
  bcast_S32x1x128_S32x2048x128_0_1_2 : S32x1x128.BroadcastsInDim S32x2048x128 (![0, 1, 2] : Fin 3 → Fin S32x2048x128.rank)
  bcast_S_S32x2048x128 : S_.BroadcastsInDim S32x2048x128 (![] : Fin 0 → Fin S32x2048x128.rank)
  reducesTo_S32x2048x128_S32x2048_d2 : S32x2048x128.ReducesTo [2] S32x2048
  reducesTo_S32x2048_S_d0_1 : S32x2048.ReducesTo [0, 1] S_
  gather_S32000x1024_S32x128x1_S32x128x1024_2_0_n_n_0_2_11024_wf : GatherDims.WF S32000x1024 S32x128x1 S32x128x1024 [2] [0] [] [0] [] 2 ![1, 1024]
  dot_S32x2048x1024_S32x128x1024_S32x2048x128_2_2_1_1_0_0_wf : DotDims.WF S32x2048x1024 S32x128x1024 S32x2048x128 [2] [2] [1] [1] [0] [0]

variable [Facts₀]

def gather_S32000x1024_S32x128x1_S32x128x1024_2_0_n_n_0_2_11024 : GatherDims S32000x1024 S32x128x1 S32x128x1024 where
  offsetDims := [2]
  collapsedSliceDims := [0]
  operandBatchingDims := []
  startIndicesBatchingDims := []
  startIndexMap := [0]
  indexVectorDim := 2
  sliceSizes := ![1, 1024]
  wf := gather_S32000x1024_S32x128x1_S32x128x1024_2_0_n_n_0_2_11024_wf
def dot_S32x2048x1024_S32x128x1024_S32x2048x128_2_2_1_1_0_0 : DotDims S32x2048x1024 S32x128x1024 S32x2048x128 where
  lhsContracting := [2]
  rhsContracting := [2]
  lhsNonContracting := [1]
  rhsNonContracting := [1]
  lhsBatch := [0]
  rhsBatch := [0]
  wf := dot_S32x2048x1024_S32x128x1024_S32x2048x128_2_2_1_1_0_0_wf

class Facts : Prop extends Facts₀ where

variable [Facts]
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.LibRowMin.lean ====
/-
  The minimum along the last axis of an array, read at an index (general: any extents, no program).

  At the exact values the minimum of two numbers is the lattice minimum of the extended reals, which commutes and
  associates; so a minimum taken along one axis does not depend on the order in which the entries are met, and is the
  fold of `min`, from the starting value, over that axis's coordinates. Two spellings of it are read here: the
  minimum of an a × b matrix along its columns (one value per row), and the minimum of an m × a × b array along its
  last axis (one value per leading pair), the second in the form a whole-array reduction from a rank-0 starting
  value takes.
-/
import Idealize.ShloMosaic.Lib.ValueIdx
import Idealize.ShloMosaic.PureOps.Ideal.Laws

noncomputable section

namespace Cert.RowMin

open Idealize.ShloMosaic Idealize.ShloMosaic.ValueIdx

/-- At the exact values, the minimum of an a × b matrix along its columns is, at row r, the fold of `min` from the
    starting value over the entries of row r. -/
theorem laneMin_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ v acc h hφ hacc (ix1 r)
      = (Finset.univ : Finset (Fin b)).fold min (Ideal.ofBits .f32 acc) (fun j => v (ix2 r j)) := by
  refine ((multiReduction_minimumf_eq_fold v acc h hφ hacc (ix1 r)).trans
    (h.fold_filter_drop_single FloatOps.minimumf _ v (ix1 r))).trans ?_
  refine Finset.fold_congr fun j _ => congrArg v ?_
  funext ax
  match ax with
  | ⟨0, _⟩ => exact Fin.ext rfl
  | ⟨1, _⟩ => exact Fin.ext rfl

/-- At the exact values, the minimum of an m × a × b array along its last axis, started from the one entry of a
    starting array, is at (p, q) the fold of `min` from that entry over the entries (p, q, ·). -/
theorem hostMinLast_apply {m a b : ℕ} {u : Shape} (x : (⟨3, ![m, a, b]⟩ : Shape).Idx → Ideal .f32)
    (init : u.Idx → Ideal .f32) (h' : (⟨3, ![m, a, b]⟩ : Shape).ReducesTo [2] ⟨2, ![m, a]⟩)
    (h : (⟨3, ![m, a, b]⟩ : Shape).Reduces [2] ⟨2, ![m, a]⟩) (hu : 0 < u.numel) (p : Fin m) (q : Fin a) :
    Host.reduce (FloatOps.minimumf (F := Ideal) (φ := .f32)) x init h' hu (ix2 p q)
      = (Finset.univ : Finset (Fin b)).fold min (init (Shape.Idx.first hu)) (fun j => x (ix3 p q j)) := by
  refine (Host.reduce_eq_fold_single (FloatOps.minimumf (F := Ideal) (φ := .f32)) x init h' h hu (ix2 p q)).trans ?_
  refine Finset.fold_congr fun j _ => congrArg x ?_
  funext ax
  match ax with
  | ⟨0, _⟩ => exact Fin.ext rfl
  | ⟨1, _⟩ => exact Fin.ext rfl
  | ⟨2, _⟩ => exact Fin.ext rfl

end Cert.RowMin

end
-- ==== Proof.Nearest.lean ====
/-
  The distance from a point to the nearest of a set of targets, over the extended reals (no program).

  For a point x and a target y, both rows of D entries, the squared distance is taken in its expanded form
  ‖x‖² + ‖y‖² − 2·⟨x, y⟩, clamped below at zero, and the distance is its square root. For a point and L targets the
  result is the least of the L distances, starting from +∞. `smallest` is that value for every point (b, n) of a
  batch of 32 × 2048 points of 1024 entries against the 128 targets of the same batch entry b.

  The constants 2, 0 and +∞ are kept as the single-precision words that denote them; the same words stand on both
  sides of every equation below, so they are never evaluated.
-/
import Idealize.ShloMosaic.PureOps.Ideal
import Idealize.ShloMosaic.Lib.ValueIdx

noncomputable section

open scoped BigOperators

namespace Cert.Nearest

open Idealize.ShloMosaic Idealize.ShloMosaic.ValueIdx

/-- The distance between two rows: the root of (‖x‖² + ‖y‖²) − 2·⟨x, y⟩ clamped below at zero. -/
def distTo {D : ℕ} (x y : Fin D → EReal) : EReal :=
  Ideal.sqrt (max (((∑ d, x d * x d) + (∑ d, y d * y d)) - Ideal.ofBits .f32 0x40000000#32 * (∑ d, x d * y d))
    (Ideal.ofBits .f32 0x00000000#32))

/-- The least distance from a row to any of L target rows, from +∞. -/
def nearest {D L : ℕ} (x : Fin D → EReal) (t : Fin L → Fin D → EReal) : EReal :=
  (Finset.univ : Finset (Fin L)).fold min (Ideal.ofBits .f32 0x7F800000#32) (fun l => distTo x (t l))

/-- Point (b, n) of the batch against the targets of batch entry b. -/
def smallestAt (X : (⟨3, ![32, 2048, 1024]⟩ : Shape).Idx → EReal) (T : (⟨3, ![32, 128, 1024]⟩ : Shape).Idx → EReal)
    (b : Fin 32) (n : Fin 2048) : EReal :=
  nearest (fun d : Fin 1024 => X (ix3 b n d)) (fun (l : Fin 128) (d : Fin 1024) => T (ix3 b l d))

/-- The same as an array over the 32 × 2048 points. -/
def smallest (X : (⟨3, ![32, 2048, 1024]⟩ : Shape).Idx → EReal) (T : (⟨3, ![32, 128, 1024]⟩ : Shape).Idx → EReal) :
    (⟨2, ![32, 2048]⟩ : Shape).Idx → EReal :=
  fun j => smallestAt X T ⟨(j 0).val, (j 0).isLt⟩ ⟨(j 1).val, (j 1).isLt⟩

theorem smallest_ix2 (X : (⟨3, ![32, 2048, 1024]⟩ : Shape).Idx → EReal) (T : (⟨3, ![32, 128, 1024]⟩ : Shape).Idx → EReal)
    (b : Fin 32) (n : Fin 2048) : smallest X T (ix2 b n) = smallestAt X T b n := rfl

end Cert.Nearest

end
-- ==== Proof.BlockNearest.lean ====
/-
  What the kernel's body computes for one batch entry, read at an index.

  The body receives one batch entry's points (a 1 × 2048 × 1024 block) and that entry's targets (a 1 × 128 × 1024
  block) and produces a 1 × 1 × 2048 block. Entry n of the result is the least, over the 128 targets l, of the root of
  (‖x_n‖² + ‖t_l‖²) − 2·⟨x_n, t_l⟩ clamped at zero: the squared norms are sums along each row, ⟨x_n, t_l⟩ is the
  matrix product of the points with the transposed targets (the narrowing of both operands to a shorter float
  format changes nothing at the exact values), and the least value is taken along each row of the 2048 × 128
  matrix of distances. This is `nearest` of row n of the points against the rows of the targets.
-/
import proofs.«142647_j41412074668572_2_alg».proof.Proof.Gen.KernelIdeal.Skeleton
import proofs.«142647_j41412074668572_2_alg».proof.Proof.LibColumn
import proofs.«142647_j41412074668572_2_alg».proof.Proof.LibRowMin
import proofs.«142647_j41412074668572_2_alg».proof.Proof.Nearest
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Nearest

/-! ## The product of the points with the transposed targets -/

theorem lhs_dot_0 (i : S2048x128.Idx) (q : dot_S2048x1024_S128x1024_S2048x128_1_1_0_0_n_n.contr.Idx) :
    (dot_S2048x1024_S128x1024_S2048x128_1_1_0_0_n_n.lhsIdx i q 0).val = (i 0).val := by
  unfold DotDims.lhsIdx
  rw [dif_neg (show ¬(0 : Fin S2048x1024.rank) ∈ dot_S2048x1024_S128x1024_S2048x128_1_1_0_0_n_n.lhsBatch by decide),
    dif_pos (show (0 : Fin S2048x1024.rank) ∈ dot_S2048x1024_S128x1024_S2048x128_1_1_0_0_n_n.lhsNonContracting by decide)]
  rfl
theorem lhs_dot_1 (i : S2048x128.Idx) (q : dot_S2048x1024_S128x1024_S2048x128_1_1_0_0_n_n.contr.Idx) :
    (dot_S2048x1024_S128x1024_S2048x128_1_1_0_0_n_n.lhsIdx i q 1).val = (q ⟨0, by decide⟩).val :=
  dot_S2048x1024_S128x1024_S2048x128_1_1_0_0_n_n.lhsIdx_val_of_single rfl i q
theorem rhs_dot_0 (i : S2048x128.Idx) (q : dot_S2048x1024_S128x1024_S2048x128_1_1_0_0_n_n.contr.Idx) :
    (dot_S2048x1024_S128x1024_S2048x128_1_1_0_0_n_n.rhsIdx i q 0).val = (i 1).val := by
  unfold DotDims.rhsIdx
  rw [dif_neg (show ¬(0 : Fin S128x1024.rank) ∈ dot_S2048x1024_S128x1024_S2048x128_1_1_0_0_n_n.rhsBatch by decide),
    dif_pos (show (0 : Fin S128x1024.rank) ∈ dot_S2048x1024_S128x1024_S2048x128_1_1_0_0_n_n.rhsNonContracting by decide)]
  rfl
theorem rhs_dot_1 (i : S2048x128.Idx) (q : dot_S2048x1024_S128x1024_S2048x128_1_1_0_0_n_n.contr.Idx) :
    (dot_S2048x1024_S128x1024_S2048x128_1_1_0_0_n_n.rhsIdx i q 1).val = (q ⟨0, by decide⟩).val :=
  dot_S2048x1024_S128x1024_S2048x128_1_1_0_0_n_n.rhsIdx_val_of_single rfl i q

/-- Entry (n, l) of the product into a zero accumulator is the sum over d of point n's entry d times target l's. -/
theorem dot_apply {φ₁ φ₂ : FTy} (v : FVec Ideal S2048x1024 φ₁) (t : FVec Ideal S128x1024 φ₂) (n : Fin 2048) (l : Fin 128) :
    matmul dot_S2048x1024_S128x1024_S2048x128_1_1_0_0_n_n none v t (constant S2048x128 .f32 0x00000000#32) (ix2 n l)
      = ∑ d : Fin 1024, v (ix2 n d) * t (ix2 l d) := by
  simp only [matmul]
  rw [Ideal.matmul_constant_zero_apply,
    ← Equiv.sum_comp (contrEquiv1 dot_S2048x1024_S128x1024_S2048x128_1_1_0_0_n_n 1024 rfl rfl).symm]
  refine Finset.sum_congr rfl fun k _ => ?_
  have hk := contrEquiv1_symm_val dot_S2048x1024_S128x1024_S2048x128_1_1_0_0_n_n 1024 rfl rfl k
  have el : dot_S2048x1024_S128x1024_S2048x128_1_1_0_0_n_n.lhsIdx (ix2 n l)
      ((contrEquiv1 dot_S2048x1024_S128x1024_S2048x128_1_1_0_0_n_n 1024 rfl rfl).symm k) = ix2 n k :=
    funext fun a => Fin.ext (by
      match a with
      | ⟨0, _⟩ => exact lhs_dot_0 _ _
      | ⟨1, _⟩ => exact (lhs_dot_1 _ _).trans hk)
  have er : dot_S2048x1024_S128x1024_S2048x128_1_1_0_0_n_n.rhsIdx (ix2 n l)
      ((contrEquiv1 dot_S2048x1024_S128x1024_S2048x128_1_1_0_0_n_n 1024 rfl rfl).symm k) = ix2 l k :=
    funext fun a => Fin.ext (by
      match a with
      | ⟨0, _⟩ => exact rhs_dot_0 _ _
      | ⟨1, _⟩ => exact (rhs_dot_1 _ _).trans hk)
  rw [el, er]

/-! ## The squared norms, kept along an axis and repeated over the matrix of distances -/

/-- The sums of squares along the rows of the points, kept as a column and repeated along each row: at (n, l) the
    squared norm of point n. -/
theorem rowNorm_apply (v : FVec Ideal S2048x1024 .f32) (acc : BitVec 32) (h1 : S2048x1024.Reduces [1] S2048)
    (h2 : FKind.Formats .f32) (h3 : acc = FKind.add.neutral .f32 h2) (h4 : S2048.ShapeCasts S2048x1)
    (h5 : S2048x1.Broadcasts S2048x128) (n : Fin 2048) (l : Fin 128) :
    broadcastTo S2048x128 (shapeCast S2048x1 (multiReduction .add [1] S2048 (mulf v v) acc h1 h2 h3) h4) h5 (ix2 n l)
      = ∑ d : Fin 1024, v (ix2 n d) * v (ix2 n d) :=
  (Cert.Column.broadcastTo_a1_ab_apply _ h5 n l).trans
    ((Cert.Column.shapeCast_a_a1_apply _ h4 n (0 : Fin 1)).trans (Cert.Column.laneSum_apply _ acc h1 h2 h3 n))

/-- The sums of squares along the rows of the targets, viewed as one row and repeated down the rows: at (n, l) the
    squared norm of target l. -/
theorem targetNorm_apply (t : FVec Ideal S128x1024 .f32) (acc : BitVec 32) (h1 : S128x1024.Reduces [1] S128)
    (h2 : FKind.Formats .f32) (h3 : acc = FKind.add.neutral .f32 h2) (h4 : S128.ShapeCasts S1x128)
    (h5 : S1x128.Broadcasts S2048x128) (n : Fin 2048) (l : Fin 128) :
    broadcastTo S2048x128 (shapeCast S1x128 (multiReduction .add [1] S128 (mulf t t) acc h1 h2 h3) h4) h5 (ix2 n l)
      = ∑ d : Fin 1024, t (ix2 l d) * t (ix2 l d) :=
  (broadcastTo_1b_ab_apply _ h5 n l).trans
    ((shapeCast_a_1a_apply _ h4 (0 : Fin 1) l).trans (Cert.Column.laneSum_apply _ acc h1 h2 h3 l))

/-! ## The body's result at entry n -/

/-- Entry (0, 0, n) of the body's result is the least distance from row n of the points block to the rows of the
    targets block. -/
theorem pay_apply (x0 : Vec Ideal S1x2048x1024 .f32) (x1 : Vec Ideal S1x128x1024 .f32) (n : Fin 2048) :
    k0_pay1 (F := Ideal) x0 x1 (ix3 (0 : Fin 1) (0 : Fin 1) n)
      = nearest (fun d : Fin 1024 => x0 (ix3 (0 : Fin 1) n d)) (fun (l : Fin 128) (d : Fin 1024) => x1 (ix3 (0 : Fin 1) l d)) := by
  unfold k0_pay1
  refine (shapeCast_ab_1ab_apply _ _ (0 : Fin 1) (0 : Fin 1) n).trans ?_
  refine (shapeCast_a_1a_apply _ _ (0 : Fin 1) n).trans ?_
  refine (Cert.RowMin.laneMin_apply _ _ _ _ _ n).trans ?_
  unfold nearest
  refine Finset.fold_congr fun l _ => ?_
  unfold distTo
  refine congrArg Ideal.sqrt (congrArg (fun z : EReal => max z (Ideal.ofBits .f32 0x00000000#32)) ?_)
  refine congrArg₂ (fun p q : EReal => p - Ideal.ofBits .f32 0x40000000#32 * q)
    (congrArg₂ (fun p q : EReal => p + q) ?_ ?_) ?_
  · exact (rowNorm_apply _ _ _ _ _ _ _ n l).trans (Finset.sum_congr rfl fun d _ =>
      congrArg₂ (fun p q : EReal => p * q) (shapeCast_1ab_ab_apply x0 _ n d) (shapeCast_1ab_ab_apply x0 _ n d))
  · exact (targetNorm_apply _ _ _ _ _ _ _ n l).trans (Finset.sum_congr rfl fun d _ =>
      congrArg₂ (fun p q : EReal => p * q) (shapeCast_1ab_ab_apply x1 _ l d) (shapeCast_1ab_ab_apply x1 _ l d))
  · exact (dot_apply _ _ n l).trans (Finset.sum_congr rfl fun d _ =>
      congrArg₂ (fun p q : EReal => p * q) (shapeCast_1ab_ab_apply x0 _ n d) (shapeCast_1ab_ab_apply x1 _ l d))

end Cert.KernelIdeal.Block

end
-- ==== Proof.ArrayNearest.lean ====
/-
  The kernel's output array after the run, as one function of the arrays the region finds.

  The grid has one point per batch entry. At point t the body reads block t of the points (all of batch entry t)
  and block t of the gathered targets, and writes block t of the 32 × 1 × 2048 output: entry (t, 0, n) is the least
  distance from point (t, n) to the targets of entry t. The 32 blocks fill the output array, so after the run entry
  (b, 0, n) of the array is `smallestAt` of the points and the gathered targets at (b, n).
-/
import proofs.«142647_j41412074668572_2_alg».proof.Proof.Gen.KernelIdeal.Frame
import proofs.«142647_j41412074668572_2_alg».proof.Proof.BlockNearest
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Nearest
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- The output array as a function of the points and the targets: entry (b, u, n) is the least distance from
    point (b, n) to the targets of batch entry b. -/
def outArr (X : S32x2048x1024.Idx → EReal) (T : S32x128x1024.Idx → EReal) : S32x1x2048.Idx → EReal :=
  fun i => smallestAt X T ⟨(i 0).val, (i 0).isLt⟩ ⟨(i 2).val, (i 2).isLt⟩

/-- The printed index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of `outArr` of the arrays as the region finds them. -/
theorem flushed_eq (c : Dev nD) (t : Fin cfg0.N) :
    (dats m 0 c).flushed 2 t
      = ((cfg0.win 2).blk t).view.read (Elt Ideal) (outArr (V m c main_arg0) (V m c main_v6)) := by
  show (cfg0.win 2).cut (grid0.coords t) ((dats m 0 c).after 2 t) = _
  rw [after0_2]
  unfold out0_2
  rw [View.canon_unit_zero hz3]
  simp only [View.ld_unit_zero (S := S1x2048x1024) hz3, View.ld_unit_zero (S := S1x128x1024) hz3]
  obtain ⟨a0, a1, a2, b0, b1, b2, c0, c1, c2⟩ := idx_facts t
  funext j
  obtain ⟨u, v, n, rfl⟩ : ∃ (u : Fin 1) (v : Fin 1) (n : Fin 2048), j = ix3 u v n := ⟨j 0, j 1, j 2, eq_ix3 j⟩
  obtain rfl : u = 0 := Subsingleton.elim _ _
  obtain rfl : v = 0 := Subsingleton.elim _ _
  show k0_pay1 (iblk m c 0 t) (iblk m c 1 t) (ix3 (0 : Fin 1) (0 : Fin 1) n)
    = outArr (V m c main_arg0) (V m c main_v6) (((cfg0.win 2).blk t).view.emb (ix3 (0 : Fin 1) (0 : Fin 1) n))
  refine (Block.pay_apply _ _ n).trans ?_
  unfold outArr smallestAt
  refine congrArg₂ nearest (funext fun d => ?_) (funext fun l => funext fun d => ?_)
  · show V m c main_arg0 (((cfg0.win 0).blk t).view.emb (ix3 (0 : Fin 1) n d)) = V m c main_arg0 (ix3 _ _ d)
    refine congrArg (V m c main_arg0) (funext fun a => Fin.ext ?_)
    match a with
    | ⟨0, _⟩ =>
      show win0_0.index t (0 : Fin 3) * 1 + 1 * 0 = win0_2.index t (0 : Fin 3) * 1 + 1 * 0
      omega
    | ⟨1, _⟩ =>
      show win0_0.index t (1 : Fin 3) * 2048 + 1 * n.val = win0_2.index t (2 : Fin 3) * 2048 + 1 * n.val
      omega
    | ⟨2, _⟩ =>
      show win0_0.index t (2 : Fin 3) * 1024 + 1 * d.val = d.val
      omega
  · show V m c main_v6 (((cfg0.win 1).blk t).view.emb (ix3 (0 : Fin 1) l d)) = V m c main_v6 (ix3 _ l d)
    refine congrArg (V m c main_v6) (funext fun a => Fin.ext ?_)
    match a with
    | ⟨0, _⟩ =>
      show win0_1.index t (0 : Fin 3) * 1 + 1 * 0 = win0_2.index t (0 : Fin 3) * 1 + 1 * 0
      omega
    | ⟨1, _⟩ =>
      show win0_1.index t (1 : Fin 3) * 128 + 1 * l.val = l.val
      omega
    | ⟨2, _⟩ =>
      show win0_1.index t (2 : Fin 3) * 1024 + 1 * d.val = d.val
      omega

/-- An index of the output array is in point t's block iff each coordinate is in the block's range on its axis. -/
theorem mem_blk (t : Fin cfg0.N) (i : S32x1x2048.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v7).slice (win0_2.rect t)).set ↔ _
  rw [View.set_slice_whole, Rect.mem_set_unit]
  exact Iff.rfl

/-- Every entry (b, 0, n) of the output array is in the block of the point b. -/
theorem cover (i : S32x1x2048.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 2048 := (i 2).isLt
  obtain ⟨t, ht⟩ : ∃ t : Fin cfg0.N, t.val = (i 0).val := ⟨⟨(i 0).val, lt_of_lt_of_eq hi0 N_0.symm⟩, rfl⟩
  obtain ⟨-, -, -, -, -, -, c0, c1, c2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 2048 ≤ (i 2).val ∧ (i 2).val < win0_2.index t (2 : Fin 3) * 2048 + 2048
    omega

/-- The output array after the run: `outArr` of the points and the gathered targets as the region finds them. -/
theorem final (c : Dev nD) : (dats m 0 c).arrAt 2 cfg0.N = outArr (V m c main_arg0) (V m c main_v6) :=
  (dats m 0 c).arrAt_eq_of_cover 2 _ (fun t _ => flushed_eq m c t) cover

end Cert.KernelIdeal.Whole

end
-- ==== Proof.KernelMean.lean ====
/-
  The kernel program's result: the mean of the least distances.

  Before the region the program wraps negative token indices by the table's length and gathers the targets' rows
  from the table; after the region it views the 32 × 1 × 2048 output as 32 × 2048, sums every entry from zero and
  divides by 65536. The view keeps entry (b, 0, n) at (b, n), so the summed array is `smallest` of the points and
  the gathered targets.
-/
import proofs.«142647_j41412074668572_2_alg».proof.Proof.ArrayNearest
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Nearest Idealize.ShloMosaic.StableHlo
open Idealize.ShloMosaic.Pipeline (Dat Cfg Window)

variable (m : (ℓ : Loc nD τ sig) → Buf (Elt Ideal) ℓ) (ρ : Dev nD → PrngReg)

/-- The targets: the table's rows at the token indices, a negative index first wrapped by the table's length. -/
def targets (x1 : (⟨S32x128, .i32⟩ : BufTy).Contents (Elt Ideal)) (x2 : (⟨S32000x1024, .f32⟩ : BufTy).Contents (Elt Ideal)) :
    (⟨S32x128x1024, .f32⟩ : BufTy).Contents (Elt Ideal) :=
  Host.gather gather_S32000x1024_S32x128x1_S32x128x1024_2_0_n_n_0_2_11024 x2
    (broadcastInDim S32x128x1 ![0, 1] Gen.bcast_S32x128_S32x128x1_0_1
      (select (cmpi .slt x1 (broadcastInDim S32x128 ![] Gen.bcast_S_S32x128 (constantI S_ 32 0#32)))
        (addi x1 (broadcastInDim S32x128 ![] Gen.bcast_S_S32x128 (constantI S_ 32 32000#32))) x1))

/-- The mean over the 32 × 2048 entries of an array: their sum from zero, divided by 65536. -/
def meanOf (A : (⟨S32x2048, .f32⟩ : BufTy).Contents (Elt Ideal)) : (⟨S_, .f32⟩ : BufTy).Contents (Elt Ideal) :=
  Host.divf (F := Ideal) (Host.reduceAdd (F := Ideal) A (constant (F := Ideal) S_ .f32 0x00000000#32)
    Gen.reducesTo_S32x2048_S_d0_1 Gen.h_S_) (constant (F := Ideal) S_ .f32 0x47800000#32)

/-- The region finds the gathered targets in its second operand's array. -/
theorem V_main_v6 (c : Dev nD) :
    V m c main_v6 = targets (m ((c : Thread nD τ).loc main_arg1)) (m ((c : Thread nD τ).loc main_arg2)) := by
  show StableHlo.after hostOps0 (fun b => m (c, b)) (Proc.devRef .tc main_v6) = _
  after_results
  rfl

/-- Viewing the 32 × 1 × 2048 output as 32 × 2048 keeps entry (b, 0, n) at (b, n). -/
theorem reshape_outArr (X : S32x2048x1024.Idx → EReal) (T : S32x128x1024.Idx → EReal) (h : S32x1x2048.ShapeCasts S32x2048) :
    shapeCast S32x2048 (outArr X T) h = smallest X T := by
  funext j
  obtain ⟨b, n, rfl⟩ : ∃ (b : Fin 32) (n : Fin 2048), j = ix2 b n := ⟨j 0, j 1, eq_ix2 j⟩
  refine (shapeCast_apply (outArr X T) h (ix2 b n) (ix3 b (0 : Fin 1) n) ?_).trans rfl
  rw [Shape.rowMajor_val_three, Shape.rowMajor_val_two]
  show (b.val * 1 + 0) * 2048 + n.val = b.val * 2048 + n.val
  omega

/-- The program's result buffer after the lines that follow the region. -/
theorem result_eq (c : Dev nD) :
    Pipeline.afterTail₀ cfgs (dats m) 0 (V0 m) [hostOps1] c main_v10
      = meanOf (smallest (m ((c : Thread nD τ).loc main_arg0))
          (targets (m ((c : Thread nD τ).loc main_arg1)) (m ((c : Thread nD τ).loc main_arg2)))) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
        (Proc.devRef .tc main_v7)
      = outArr (m ((c : Thread nD τ).loc main_arg0))
          (targets (m ((c : Thread nD τ).loc main_arg1)) (m ((c : Thread nD τ).loc main_arg2))) :=
    (Pipeline.withArrays_arr spec0 launch0.win.arr_inj c _ _ 2).trans
      ((final m c).trans (by rw [V_main_arg0, V_main_v6]))
  rw [hw]
  exact congrArg meanOf (reshape_outArr _ _ _)

/-- The kernel program's run, read: every weakly fair execution ends with the result buffer at the mean of the
    least distances of the argument arrays, and the argument arrays unchanged. -/
theorem run : θ_run defs (onTc (τ := τ) (main (F := Ideal))) ⟨m, fun _ => 0, ρ⟩ fun r => ∀ c : Dev nD,
      r.2.mem ((c.tc : Thread nD τ).loc main_v10)
        = meanOf (smallest (m ((c.tc : Thread nD τ).loc main_arg0))
            (targets (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceNearest.lean ====
/-
  What the reference computes before its final mean, read at an index.

  The reference forms, for the whole batch at once, the squared norms of the points (a sum along the last axis of
  the squared points), the squared norms of the gathered targets, and the batched product of the points with the
  targets contracted along their last axes; it adds the two norms (each repeated along the other's axis), subtracts
  twice the product, clamps at zero, takes the root, and takes the least value along the targets' axis starting from
  +∞. Each sum starts from the zero word, which denotes 0 and so adds nothing. Index by index this is `smallest` of
  the points and the gathered targets.
-/
import proofs.«142647_j41412074668572_2_alg».proof.Proof.Gen.ReferenceIdeal.Read
import proofs.«142647_j41412074668572_2_alg».proof.Proof.LibRowMin
import proofs.«142647_j41412074668572_2_alg».proof.Proof.Nearest

noncomputable section

open scoped BigOperators

namespace Cert.ReferenceIdeal.RefNearest

open Cert.ReferenceIdeal Cert.ReferenceIdeal.Gen Cert.ReferenceIdeal.Read Idealize.ShloMosaic Idealize.ShloMosaic.ValueIdx
open Cert.Nearest

variable (x0 : (⟨S32x2048x1024, .f32⟩ : BufTy).Contents (Elt Ideal)) (x1 : (⟨S32x128, .i32⟩ : BufTy).Contents (Elt Ideal))
  (x2 : (⟨S32000x1024, .f32⟩ : BufTy).Contents (Elt Ideal))

/-- The squared norm of point (b, n). -/
theorem sqPoints (b : Fin 32) (n : Fin 2048) :
    val_main_v8 (F := Ideal) x0 (ix2 b n) = ∑ d : Fin 1024, x0 (ix3 b n d) * x0 (ix3 b n d) := by
  rw [val_main_v8_apply]
  show Ideal.ofBits .f32 0x00000000#32 + _ = _
  rw [Ideal.ofBits_zero_f32, zero_add]
  refine Finset.sum_congr rfl fun k _ => ?_
  have e : idx_main_v8 (ix2 b n) k = ix3 b n k :=
    funext fun a => Fin.ext (by match a with | ⟨0, _⟩ => rfl | ⟨1, _⟩ => rfl | ⟨2, _⟩ => rfl)
  rw [e]; rfl

/-- The squared norm of target (b, l). -/
theorem sqTargets (b : Fin 32) (l : Fin 128) :
    val_main_v10 (F := Ideal) x1 x2 (ix2 b l)
      = ∑ d : Fin 1024, val_main_v6 (F := Ideal) x1 x2 (ix3 b l d) * val_main_v6 (F := Ideal) x1 x2 (ix3 b l d) := by
  rw [val_main_v10_apply]
  show Ideal.ofBits .f32 0x00000000#32 + _ = _
  rw [Ideal.ofBits_zero_f32, zero_add]
  refine Finset.sum_congr rfl fun k _ => ?_
  have e : idx_main_v10 (ix2 b l) k = ix3 b l k :=
    funext fun a => Fin.ext (by match a with | ⟨0, _⟩ => rfl | ⟨1, _⟩ => rfl | ⟨2, _⟩ => rfl)
  rw [e]; rfl

/-- The distance from point (b, n) to target (b, l). -/
theorem dist_at (b : Fin 32) (n : Fin 2048) (l : Fin 128) :
    val_main_v22 (F := Ideal) x0 x1 x2 (ix3 b n l)
      = distTo (fun d : Fin 1024 => x0 (ix3 b n d)) (fun d : Fin 1024 => val_main_v6 (F := Ideal) x1 x2 (ix3 b l d)) := by
  have e12 : idx_main_v12 (idx_main_v14 (ix3 b n l)) = ix2 b n :=
    funext fun a => Fin.ext (by match a with | ⟨0, _⟩ => rfl | ⟨1, _⟩ => rfl)
  have e13 : idx_main_v13 (idx_main_v15 (ix3 b n l)) = ix2 b l :=
    funext fun a => Fin.ext (by match a with | ⟨0, _⟩ => rfl | ⟨1, _⟩ => rfl)
  have el : ∀ k : Fin 1024, lidx_main_v11 (ix3 b n l) k = ix3 b n k := fun k =>
    funext fun a => Fin.ext (by match a with | ⟨0, _⟩ => rfl | ⟨1, _⟩ => rfl | ⟨2, _⟩ => rfl)
  have er : ∀ k : Fin 1024, ridx_main_v11 (ix3 b n l) k = ix3 b l k := fun k =>
    funext fun a => Fin.ext (by match a with | ⟨0, _⟩ => rfl | ⟨1, _⟩ => rfl | ⟨2, _⟩ => rfl)
  rw [val_main_v22_apply, val_main_v21_apply, val_main_v19_apply, val_main_v16_apply, val_main_v18_apply,
    val_main_v14_apply, val_main_v12_apply, val_main_v15_apply, val_main_v13_apply, val_main_v17_apply,
    val_main_v20_apply, val_main_v11_apply, e12, e13, sqPoints, sqTargets]
  simp only [el, er]
  rfl

/-- The least distance from point (b, n) to the targets of batch entry b. -/
theorem v23_at (b : Fin 32) (n : Fin 2048) :
    val_main_v23 (F := Ideal) x0 x1 x2 (ix2 b n) = smallestAt x0 (val_main_v6 (F := Ideal) x1 x2) b n := by
  unfold val_main_v23
  refine (Cert.RowMin.hostMinLast_apply _ _ _ (by decide) _ b n).trans ?_
  unfold smallestAt nearest
  exact Finset.fold_congr fun l _ => dist_at x0 x1 x2 b n l

/-- As arrays: the reference's least distances are `smallest` of the points and the gathered targets. -/
theorem v23_eq : val_main_v23 (F := Ideal) x0 x1 x2 = smallest x0 (val_main_v6 (F := Ideal) x1 x2) := by
  funext j
  obtain ⟨b, n, rfl⟩ : ∃ (b : Fin 32) (n : Fin 2048), j = ix2 b n := ⟨j 0, j 1, eq_ix2 j⟩
  exact v23_at x0 x1 x2 b n

end Cert.ReferenceIdeal.RefNearest

end
-- ==== Proof.lean ====
/-
  The mean, over a batch of 32 × 2048 points, of each point's distance to the nearest of its batch entry's 128
  targets: the kernel program against its reference, at the exact values.

  Both programs gather the targets from the table in the same way (a negative token index wrapped by the table's
  length). Both then compute, for point (b, n) and target (b, l), the root of (‖x‖² + ‖t‖²) − 2·⟨x, t⟩ clamped at
  zero, take the least over l starting from +∞, sum the 32 × 2048 results from zero and divide by 65536. The kernel
  does the middle part one batch entry per grid point, with the inner product as a matrix product of operands
  narrowed to a shorter float format (no change at the exact values) and the norms and the minimum as reductions
  along rows; the reference does it for the whole batch at once. The two differ only in how sums and minima are
  arranged, and on the extended reals a finite sum and a finite minimum do not depend on the arrangement: no
  cancellation or distribution is used, so the finiteness of the inputs is never needed.

  The kernel program's result is read off its run block by block (Proof/BlockNearest, Proof/ArrayNearest,
  Proof/KernelMean), the reference's off its operations one at a time (Proof/ReferenceNearest); both are the mean
  of `Cert.Nearest.smallest` of the points and the gathered targets (Proof/Nearest). The idealization rewrote no
  operation of the kernel program, so nothing is to be shown about it.
-/
import proofs.«142647_j41412074668572_2_alg».proof.Defs
import proofs.«142647_j41412074668572_2_alg».proof.Proof.Gen.Kernel
import proofs.«142647_j41412074668572_2_alg».proof.Proof.Gen.Kernel.Skeleton
import proofs.«142647_j41412074668572_2_alg».proof.Proof.Gen.Kernel.Launch
import proofs.«142647_j41412074668572_2_alg».proof.Proof.Gen.Kernel.Points
import proofs.«142647_j41412074668572_2_alg».proof.Proof.Gen.Kernel.Frame
import proofs.«142647_j41412074668572_2_alg».proof.Proof.Gen.KernelIdeal
import proofs.«142647_j41412074668572_2_alg».proof.Proof.Gen.KernelIdeal.Skeleton
import proofs.«142647_j41412074668572_2_alg».proof.Proof.Gen.KernelIdeal.Launch
import proofs.«142647_j41412074668572_2_alg».proof.Proof.Gen.KernelIdeal.Points
import proofs.«142647_j41412074668572_2_alg».proof.Proof.Gen.KernelIdeal.Frame
import proofs.«142647_j41412074668572_2_alg».proof.Proof.Gen.ReferenceIdeal
import proofs.«142647_j41412074668572_2_alg».proof.Proof.Gen.Pre_finite_inputs
import proofs.«142647_j41412074668572_2_alg».proof.Proof.Gen.ReferenceIdeal.Run
import proofs.«142647_j41412074668572_2_alg».proof.Proof.Gen.ReferenceIdeal.Read
import proofs.«142647_j41412074668572_2_alg».proof.Proof.KernelMean
import proofs.«142647_j41412074668572_2_alg».proof.Proof.ReferenceNearest
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result, as a function of its argument arrays, is the mean of the least distances of the points
    to the gathered targets: the same function the kernel program's run ends at. -/
theorem reference_eq (x0 : (⟨Cert.ReferenceIdeal.S32x2048x1024, .f32⟩ : BufTy).Contents (Elt Ideal))
    (x1 : (⟨Cert.ReferenceIdeal.S32x128, .i32⟩ : BufTy).Contents (Elt Ideal))
    (x2 : (⟨Cert.ReferenceIdeal.S32000x1024, .f32⟩ : BufTy).Contents (Elt Ideal)) :
    Cert.ReferenceIdeal.Read.val_main_v25 (F := Ideal) x0 x1 x2
      = Cert.KernelIdeal.Whole.meanOf (Cert.Nearest.smallest x0 (Cert.KernelIdeal.Whole.targets x1 x2)) := by
  show Cert.KernelIdeal.Whole.meanOf (Cert.ReferenceIdeal.Read.val_main_v23 (F := Ideal) x0 x1 x2) = _
  rw [Cert.ReferenceIdeal.RefNearest.v23_eq]
  rfl

/-- From memories that agree on the arguments both programs end with the same result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v25_eq _ _ _).trans (reference_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
